-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Cases.lean ====
/-
  The tile body's control. The grid is 4 x 4 x 4, walked with the last axis fastest, so point `t` has
  contraction step `k = t % 4`. The body has three conditionals on `k` alone: `k = 0` (store the
  tile product), `k > 0` (add the tile product to what the output tile holds), `k = 3` (add the bias
  row). Over the grid exactly three assignments of the three conditions occur:
    first  (k = 0):    yes, no, no;
    middle (k = 1, 2): no, yes, no;
    last   (k = 3):    no, yes, yes.
  Here: the conditions in closed form, that the output window is never idle, and names for the
  staging buffers the body is handed at a point.
-/
import proofs.«105671_j81243601371171_2_alg».proof.Proof.Gen.Kernel.Frame
import proofs.«105671_j81243601371171_2_alg».proof.Proof.Gen.Kernel.Skeleton

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three conditions of the body, as propositions over the grid coordinates. -/
abbrev isFirst (i : grid0.Coords) : Prop := k0_cond1 i = 1#1
abbrev isLater (i : grid0.Coords) : Prop := k0_cond2 i = 1#1
abbrev isLast (i : grid0.Coords) : Prop := k0_cond3 i = 1#1

/-- `k = 0` exactly at the points divisible by 4. -/
theorem first_iff : ∀ t : Fin cfg0.N, isFirst (grid0.coords t) ↔ t.val % 4 = 0 :=
  (by decide +kernel : ∀ t : Fin grid0.N, isFirst (grid0.coords t) ↔ t.val % 4 = 0)
/-- `k > 0` at all the others. -/
theorem later_iff : ∀ t : Fin cfg0.N, isLater (grid0.coords t) ↔ ¬ t.val % 4 = 0 :=
  (by decide +kernel : ∀ t : Fin grid0.N, isLater (grid0.coords t) ↔ ¬ t.val % 4 = 0)
/-- `k = 3` at the points that are 3 modulo 4. -/
theorem last_iff : ∀ t : Fin cfg0.N, isLast (grid0.coords t) ↔ t.val % 4 = 3 :=
  (by decide +kernel : ∀ t : Fin grid0.N, isLast (grid0.coords t) ↔ t.val % 4 = 3)

/-- At every grid coordinate one of `k = 0`, `k > 0` holds, so the body always stores into the
    output tile: the output window is idle nowhere. -/
theorem out_live (i : grid0.Coords) : cfg0.idle 3 i = false := by
  show (!(k0_cond1 i == 1#1) && !(k0_cond2 i == 1#1) && !(k0_cond3 i == 1#1)) = false
  unfold k0_cond1 k0_cond2 k0_cond3
  dsimp only
  generalize i 2 = k
  revert k
  decide

/-- The staging buffers the body is handed at point `t`, and that each is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)

/-- One staging buffer of the output window, through which a tile's contents are stated. -/
abbrev outView : View sig .tc .vmem S1024x1024 .f32 := (Memref.whole cc0_stg3_0 : Memref sig .tc .vmem S1024x1024 .f32).view

end Cert.Kernel.Acc

end
-- ==== Proof.K.RunFirst.lean ====
/-
  The tile body at a point with contraction step k = 0: it stores the tile product of its two input
  tiles into the output tile (after a load of the output tile whose value it does not use).
-/
import proofs.«105671_j81243601371171_2_alg».proof.Proof.K.Cases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers — the three inputs' at contents `x0`, `x1`, `x2`, the output's at
    anything — runs to its end with the inputs' buffers as they were and the output's buffer
    overwritten by a list of stores (newest first); the list is found by running the body. -/
noncomputable def runFirst (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_bias_kernel i arg3 harg3 arg4 harg4 arg5 harg5 arg6 harg6) K } := by
  refine ⟨?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Acc

end
-- ==== Proof.K.RunMiddle.lean ====
/-
  The tile body at a point with contraction step k = 1 or 2: it loads the output tile, adds the tile
  product of its two input tiles, and stores the sum back.
-/
import proofs.«105671_j81243601371171_2_alg».proof.Proof.K.RunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers — the three inputs' at contents `x0`, `x1`, `x2`, the output's at
    the running contents `acc` — runs to its end with the inputs' buffers as they were and the output's buffer
    overwritten by a list of stores (newest first); the list is found by running the body. -/
noncomputable def runMiddle (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare acc
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_bias_kernel i arg3 harg3 arg4 harg4 arg5 harg5 arg6 harg6) K } := by
  refine ⟨?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Acc

end
-- ==== Proof.K.RunLast.lean ====
/-
  The tile body at a point with contraction step k = 3: it adds the tile product to the output tile as at
  the middle steps, then loads the tile again, adds the bias row to every row, and stores the result.
-/
import proofs.«105671_j81243601371171_2_alg».proof.Proof.K.RunMiddle

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers — the three inputs' at contents `x0`, `x1`, `x2`, the output's at
    the running contents `acc` — runs to its end with the inputs' buffers as they were and the output's buffer
    overwritten by a list of stores (newest first); the list is found by running the body. -/
noncomputable def runLast (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare acc
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_bias_kernel i arg3 harg3 arg4 harg4 arg5 harg5 arg6 harg6) K } := by
  refine ⟨?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Acc

end
-- ==== Proof.K.Frame.lean ====
/-
  The frame of the tiled product: the program runs to its end without a fault and leaves its
  argument arrays as they were.

  What the output tile's staging buffer holds after the body at each grid point is defined by
  recursion on the point (`tileAfter`): at a point with k = 0 what the first case's stores leave,
  at a later point what the middle (or last) case's stores leave over what the point before left —
  between two points of one (i, j) the output tile is not written back, so the body finds what it
  left. Each case's stores cover the whole tile, so the staging buffer's contents are determined.
  With these contents as proof data, each point's obligation is the matching case's run, and the
  launch theorem gives the run of the whole program.
-/
import proofs.«105671_j81243601371171_2_alg».proof.Proof.K.RunLast

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the output tile -/

theorem coverFirst (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) (y : S1024x1024.Idx) :
    ∃ pc ∈ (runFirst c i arg3 harg3 arg4 harg4 arg5 harg5 arg6 harg6 h1 h2 h3 x0 x1 x2).1, y ∈ pc.1.set :=
  View.cover_of_tiledL (runFirst c i arg3 harg3 arg4 harg4 arg5 harg5 arg6 harg6 h1 h2 h3 x0 x1 x2).1 S1024x1024.size (by sl_kernel_rfl) y

/-- What the first case leaves in the output tile's staging buffer. -/
def outFirst (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) : Vec F S1024x1024 .f32 :=
  outView.read (Elt F) (outView.writes (Elt F) outView.junk (runFirst c i arg3 harg3 arg4 harg4 arg5 harg5 arg6 harg6 h1 h2 h3 x0 x1 x2).1)

theorem coverMiddle (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) (y : S1024x1024.Idx) :
    ∃ pc ∈ (runMiddle c i arg3 harg3 arg4 harg4 arg5 harg5 arg6 harg6 h1 h2 h3 x0 x1 x2 acc).1, y ∈ pc.1.set :=
  View.cover_of_tiledL (runMiddle c i arg3 harg3 arg4 harg4 arg5 harg5 arg6 harg6 h1 h2 h3 x0 x1 x2 acc).1 S1024x1024.size (by sl_kernel_rfl) y

/-- What a middle case leaves there, when it found `acc`. -/
def outMiddle (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) : Vec F S1024x1024 .f32 :=
  outView.read (Elt F) (outView.writes (Elt F) outView.junk (runMiddle c i arg3 harg3 arg4 harg4 arg5 harg5 arg6 harg6 h1 h2 h3 x0 x1 x2 acc).1)

theorem coverLast (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) (y : S1024x1024.Idx) :
    ∃ pc ∈ (runLast c i arg3 harg3 arg4 harg4 arg5 harg5 arg6 harg6 h1 h2 h3 x0 x1 x2 acc).1, y ∈ pc.1.set :=
  View.cover_of_tiledL (runLast c i arg3 harg3 arg4 harg4 arg5 harg5 arg6 harg6 h1 h2 h3 x0 x1 x2 acc).1 S1024x1024.size (by sl_kernel_rfl) y

/-- What the last case leaves there, when it found `acc`. -/
def outLast (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) : Vec F S1024x1024 .f32 :=
  outView.read (Elt F) (outView.writes (Elt F) outView.junk (runLast c i arg3 harg3 arg4 harg4 arg5 harg5 arg6 harg6 h1 h2 h3 x0 x1 x2 acc).1)

/-! ## Which case a point is in -/

theorem hyp_first {t : Fin cfg0.N} (h0 : t.val % 4 = 0) :
    isFirst (grid0.coords t) ∧ ¬isLater (grid0.coords t) ∧ ¬isLast (grid0.coords t) :=
  ⟨(first_iff t).mpr h0, fun h => (later_iff t).mp h h0, fun h => by have := (last_iff t).mp h; omega⟩

theorem hyp_middle {t : Fin cfg0.N} (h0 : ¬t.val % 4 = 0) (h3 : ¬t.val % 4 = 3) :
    ¬isFirst (grid0.coords t) ∧ isLater (grid0.coords t) ∧ ¬isLast (grid0.coords t) :=
  ⟨fun h => h0 ((first_iff t).mp h), (later_iff t).mpr h0, fun h => h3 ((last_iff t).mp h)⟩

theorem hyp_last {t : Fin cfg0.N} (h3 : t.val % 4 = 3) :
    ¬isFirst (grid0.coords t) ∧ isLater (grid0.coords t) ∧ isLast (grid0.coords t) :=
  ⟨fun h => by have := (first_iff t).mp h; omega, (later_iff t).mpr (by omega), (last_iff t).mpr h3⟩

/-- One point's step, by case, on the point's staging buffers and input tiles. -/
def stepFirst (c : Dev nD) (t : Fin cfg0.N) (h0 : t.val % 4 = 0) : Vec F S1024x1024 .f32 :=
  outFirst c (grid0.coords t) (ms0 t) (hs0 t) (ms1 t) (hs1 t) (ms2 t) (hs2 t) (ms3 t) (hs3 t) (hyp_first h0).1 (hyp_first h0).2.1 (hyp_first h0).2.2 (iblk m c 0 t) (iblk m c 1 t) (iblk m c 2 t)
def stepMiddle (c : Dev nD) (t : Fin cfg0.N) (h0 : ¬t.val % 4 = 0) (h3 : ¬t.val % 4 = 3) (acc : Vec F S1024x1024 .f32) : Vec F S1024x1024 .f32 :=
  outMiddle c (grid0.coords t) (ms0 t) (hs0 t) (ms1 t) (hs1 t) (ms2 t) (hs2 t) (ms3 t) (hs3 t) (hyp_middle h0 h3).1 (hyp_middle h0 h3).2.1 (hyp_middle h0 h3).2.2 (iblk m c 0 t) (iblk m c 1 t) (iblk m c 2 t) acc
def stepLast (c : Dev nD) (t : Fin cfg0.N) (h3 : t.val % 4 = 3) (acc : Vec F S1024x1024 .f32) : Vec F S1024x1024 .f32 :=
  outLast c (grid0.coords t) (ms0 t) (hs0 t) (ms1 t) (hs1 t) (ms2 t) (hs2 t) (ms3 t) (hs3 t) (hyp_last h3).1 (hyp_last h3).2.1 (hyp_last h3).2.2 (iblk m c 0 t) (iblk m c 1 t) (iblk m c 2 t) acc

/-- What the output tile's staging buffer holds after the body at point `n`. -/
def tileAfter (c : Dev nD) : (n : ℕ) → n < cfg0.N → Vec F S1024x1024 .f32
  | 0, hn => stepFirst m c ⟨0, hn⟩ (Nat.zero_mod _)
  | n + 1, hn =>
    if h0 : (n + 1) % 4 = 0 then stepFirst m c ⟨n + 1, hn⟩ h0
    else if h3 : (n + 1) % 4 = 3 then stepLast m c ⟨n + 1, hn⟩ h3 (tileAfter c n (Nat.lt_of_succ_lt hn))
    else stepMiddle m c ⟨n + 1, hn⟩ h0 h3 (tileAfter c n (Nat.lt_of_succ_lt hn))

theorem tileAfter_first (c : Dev nD) (t : Fin cfg0.N) (h0 : t.val % 4 = 0) :
    tileAfter m c t.val t.isLt = stepFirst m c t h0 := by
  obtain ⟨n, hn⟩ := t
  cases n with
  | zero => exact rfl
  | succ n => exact (dif_pos h0).trans rfl

theorem tileAfter_middle (c : Dev nD) (t : Fin cfg0.N) (h0 : ¬t.val % 4 = 0) (h3 : ¬t.val % 4 = 3) :
    tileAfter m c t.val t.isLt
      = stepMiddle m c t h0 h3 (tileAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem tileAfter_last (c : Dev nD) (t : Fin cfg0.N) (h3 : t.val % 4 = 3) :
    tileAfter m c t.val t.isLt
      = stepLast m c t h3 (tileAfter m c (t.val - 1) (Nat.lt_of_le_of_lt (Nat.sub_le _ _) t.isLt)) := by
  obtain ⟨n, hn⟩ := t
  cases n with
  | zero => exact absurd (show 0 % 4 = 3 from h3) (by decide)
  | succ n => exact (dif_neg (by dsimp only at h3; omega)).trans ((dif_pos h3).trans rfl)

/-! ## The proof data -/

/-- The arrays as the region finds them; after the body each input's buffer at its tile and the
    output's at `tileAfter`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = tileAfter m c t.val t.isLt := by dsimp only [dats]

/-- Each input's staging buffer holds its tile at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point with k > 0 the output tile's staging buffer holds what the body left at the point
    before: the tile is written back only after k = 3, and the window is idle nowhere. -/
theorem before3_kept (c : Dev nD) (t : Fin cfg0.N) (h0 : ¬t.val % 4 = 0) (d) :
    (dats m 0 c).before 3 t d = tileAfter m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    out_live (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What the obligation asks of the output tile's buffer, its cases on the window's idle table
    written out; the window being idle nowhere, it is the buffer at `after`. -/
def outPost (c : Dev nD) (t : Fin cfg0.N) : sProp 𝕄 :=
  match cfg0.idle 3 (cfg0.grid.coords t) with
  | true =>
    match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

theorem outPost_eq (c : Dev nD) (t : Fin cfg0.N) :
    outPost m c t = owns (c : Thread nD τ) (ms3 t) fullShare ((dats m 0 c).after 3 t) := by
  unfold outPost; rw [out_live]

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ outPost m c t)

set_option maxHeartbeats 1600000 in
/-- The body at any point: the inputs' buffers hold their tiles; the point's k selects the case; at
    k > 0 the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [outPost_eq]
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [tileAfter_first m c t h0]
    unfold stepFirst outFirst
    iintro ⟨HΦ, Ho, ⟨%d0, H0⟩, ⟨%d1, H1⟩, ⟨%d2, H2⟩, ⟨%d3, H3⟩⟩
    iapply ((runFirst c (grid0.coords t) _ _ _ _ _ _ _ _ (hyp_first h0).1 (hyp_first h0).2.1 (hyp_first h0).2.2 (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _ _)
  · by_cases h3 : t.val % 4 = 3
    · rw [tileAfter_last m c t h3]
      simp only [before3_kept m c t h0]
      unfold stepLast outLast
      iintro ⟨HΦ, Ho, ⟨%d0, H0⟩, ⟨%d1, H1⟩, ⟨%d2, H2⟩, ⟨%d3, H3⟩⟩
      iapply ((runLast c (grid0.coords t) _ _ _ _ _ _ _ _ (hyp_last h3).1 (hyp_last h3).2.1 (hyp_last h3).2.2 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _)
    · rw [tileAfter_middle m c t h0 h3]
      simp only [before3_kept m c t h0]
      unfold stepMiddle outMiddle
      iintro ⟨HΦ, Ho, ⟨%d0, H0⟩, ⟨%d1, H1⟩, ⟨%d2, H2⟩, ⟨%d3, H3⟩⟩
      iapply ((runMiddle c (grid0.coords t) _ _ _ _ _ _ _ _ (hyp_middle h0 h3).1 (hyp_middle h0 h3).2.1 (hyp_middle h0 h3).2.2 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverMiddle c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; every array a window
    stages ends at what the proof data computes, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Acc

end
-- ==== Proof.KI.Cases.lean ====
/-
  The tile body's control. The grid is 4 x 4 x 4, walked with the last axis fastest, so point `t` has
  contraction step `k = t % 4`. The body has three conditionals on `k` alone: `k = 0` (store the
  tile product), `k > 0` (add the tile product to what the output tile holds), `k = 3` (add the bias
  row). Over the grid exactly three assignments of the three conditions occur:
    first  (k = 0):    yes, no, no;
    middle (k = 1, 2): no, yes, no;
    last   (k = 3):    no, yes, yes.
  Here: the conditions in closed form, that the output window is never idle, and names for the
  staging buffers the body is handed at a point.
-/
import proofs.«105671_j81243601371171_2_alg».proof.Proof.Gen.KernelIdeal.Frame
import proofs.«105671_j81243601371171_2_alg».proof.Proof.Gen.KernelIdeal.Skeleton

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three conditions of the body, as propositions over the grid coordinates. -/
abbrev isFirst (i : grid0.Coords) : Prop := k0_cond1 i = 1#1
abbrev isLater (i : grid0.Coords) : Prop := k0_cond2 i = 1#1
abbrev isLast (i : grid0.Coords) : Prop := k0_cond3 i = 1#1

/-- `k = 0` exactly at the points divisible by 4. -/
theorem first_iff : ∀ t : Fin cfg0.N, isFirst (grid0.coords t) ↔ t.val % 4 = 0 :=
  (by decide +kernel : ∀ t : Fin grid0.N, isFirst (grid0.coords t) ↔ t.val % 4 = 0)
/-- `k > 0` at all the others. -/
theorem later_iff : ∀ t : Fin cfg0.N, isLater (grid0.coords t) ↔ ¬ t.val % 4 = 0 :=
  (by decide +kernel : ∀ t : Fin grid0.N, isLater (grid0.coords t) ↔ ¬ t.val % 4 = 0)
/-- `k = 3` at the points that are 3 modulo 4. -/
theorem last_iff : ∀ t : Fin cfg0.N, isLast (grid0.coords t) ↔ t.val % 4 = 3 :=
  (by decide +kernel : ∀ t : Fin grid0.N, isLast (grid0.coords t) ↔ t.val % 4 = 3)

/-- At every grid coordinate one of `k = 0`, `k > 0` holds, so the body always stores into the
    output tile: the output window is idle nowhere. -/
theorem out_live (i : grid0.Coords) : cfg0.idle 3 i = false := by
  show (!(k0_cond1 i == 1#1) && !(k0_cond2 i == 1#1) && !(k0_cond3 i == 1#1)) = false
  unfold k0_cond1 k0_cond2 k0_cond3
  dsimp only
  generalize i 2 = k
  revert k
  decide

/-- The staging buffers the body is handed at point `t`, and that each is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)

/-- One staging buffer of the output window, through which a tile's contents are stated. -/
abbrev outView : View sig .tc .vmem S1024x1024 .f32 := (Memref.whole cc0_stg3_0 : Memref sig .tc .vmem S1024x1024 .f32).view

end Cert.KernelIdeal.Acc

end
-- ==== Proof.KI.RunFirst.lean ====
/-
  The tile body at a point with contraction step k = 0: it stores the tile product of its two input
  tiles into the output tile (after a load of the output tile whose value it does not use).
-/
import proofs.«105671_j81243601371171_2_alg».proof.Proof.KI.Cases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers — the three inputs' at contents `x0`, `x1`, `x2`, the output's at
    anything — runs to its end with the inputs' buffers as they were and the output's buffer
    overwritten by a list of stores (newest first); the list is found by running the body. -/
noncomputable def runFirst (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_bias_kernel i arg3 harg3 arg4 harg4 arg5 harg5 arg6 harg6) K } := by
  refine ⟨?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Acc

end
-- ==== Proof.KI.RunMiddle.lean ====
/-
  The tile body at a point with contraction step k = 1 or 2: it loads the output tile, adds the tile
  product of its two input tiles, and stores the sum back.
-/
import proofs.«105671_j81243601371171_2_alg».proof.Proof.KI.RunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers — the three inputs' at contents `x0`, `x1`, `x2`, the output's at
    the running contents `acc` — runs to its end with the inputs' buffers as they were and the output's buffer
    overwritten by a list of stores (newest first); the list is found by running the body. -/
noncomputable def runMiddle (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare acc
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_bias_kernel i arg3 harg3 arg4 harg4 arg5 harg5 arg6 harg6) K } := by
  refine ⟨?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Acc

end
-- ==== Proof.KI.RunLast.lean ====
/-
  The tile body at a point with contraction step k = 3: it adds the tile product to the output tile as at
  the middle steps, then loads the tile again, adds the bias row to every row, and stores the result.
-/
import proofs.«105671_j81243601371171_2_alg».proof.Proof.KI.RunMiddle

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers — the three inputs' at contents `x0`, `x1`, `x2`, the output's at
    the running contents `acc` — runs to its end with the inputs' buffers as they were and the output's buffer
    overwritten by a list of stores (newest first); the list is found by running the body. -/
noncomputable def runLast (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) :
    { L : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare acc
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0__matmul_bias_kernel i arg3 harg3 arg4 harg4 arg5 harg5 arg6 harg6) K } := by
  refine ⟨?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Acc

end
-- ==== Proof.KI.Frame.lean ====
/-
  The frame of the tiled product: the program runs to its end without a fault and leaves its
  argument arrays as they were.

  What the output tile's staging buffer holds after the body at each grid point is defined by
  recursion on the point (`tileAfter`): at a point with k = 0 what the first case's stores leave,
  at a later point what the middle (or last) case's stores leave over what the point before left —
  between two points of one (i, j) the output tile is not written back, so the body finds what it
  left. Each case's stores cover the whole tile, so the staging buffer's contents are determined.
  With these contents as proof data, each point's obligation is the matching case's run, and the
  launch theorem gives the run of the whole program.
-/
import proofs.«105671_j81243601371171_2_alg».proof.Proof.KI.RunLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the output tile -/

theorem coverFirst (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) (y : S1024x1024.Idx) :
    ∃ pc ∈ (runFirst c i arg3 harg3 arg4 harg4 arg5 harg5 arg6 harg6 h1 h2 h3 x0 x1 x2).1, y ∈ pc.1.set :=
  View.cover_of_tiledL (runFirst c i arg3 harg3 arg4 harg4 arg5 harg5 arg6 harg6 h1 h2 h3 x0 x1 x2).1 S1024x1024.size (by sl_kernel_rfl) y

/-- What the first case leaves in the output tile's staging buffer. -/
def outFirst (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) : Vec F S1024x1024 .f32 :=
  outView.read (Elt F) (outView.writes (Elt F) outView.junk (runFirst c i arg3 harg3 arg4 harg4 arg5 harg5 arg6 harg6 h1 h2 h3 x0 x1 x2).1)

theorem coverMiddle (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) (y : S1024x1024.Idx) :
    ∃ pc ∈ (runMiddle c i arg3 harg3 arg4 harg4 arg5 harg5 arg6 harg6 h1 h2 h3 x0 x1 x2 acc).1, y ∈ pc.1.set :=
  View.cover_of_tiledL (runMiddle c i arg3 harg3 arg4 harg4 arg5 harg5 arg6 harg6 h1 h2 h3 x0 x1 x2 acc).1 S1024x1024.size (by sl_kernel_rfl) y

/-- What a middle case leaves there, when it found `acc`. -/
def outMiddle (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) : Vec F S1024x1024 .f32 :=
  outView.read (Elt F) (outView.writes (Elt F) outView.junk (runMiddle c i arg3 harg3 arg4 harg4 arg5 harg5 arg6 harg6 h1 h2 h3 x0 x1 x2 acc).1)

theorem coverLast (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) (y : S1024x1024.Idx) :
    ∃ pc ∈ (runLast c i arg3 harg3 arg4 harg4 arg5 harg5 arg6 harg6 h1 h2 h3 x0 x1 x2 acc).1, y ∈ pc.1.set :=
  View.cover_of_tiledL (runLast c i arg3 harg3 arg4 harg4 arg5 harg5 arg6 harg6 h1 h2 h3 x0 x1 x2 acc).1 S1024x1024.size (by sl_kernel_rfl) y

/-- What the last case leaves there, when it found `acc`. -/
def outLast (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) : Vec F S1024x1024 .f32 :=
  outView.read (Elt F) (outView.writes (Elt F) outView.junk (runLast c i arg3 harg3 arg4 harg4 arg5 harg5 arg6 harg6 h1 h2 h3 x0 x1 x2 acc).1)

/-! ## Which case a point is in -/

theorem hyp_first {t : Fin cfg0.N} (h0 : t.val % 4 = 0) :
    isFirst (grid0.coords t) ∧ ¬isLater (grid0.coords t) ∧ ¬isLast (grid0.coords t) :=
  ⟨(first_iff t).mpr h0, fun h => (later_iff t).mp h h0, fun h => by have := (last_iff t).mp h; omega⟩

theorem hyp_middle {t : Fin cfg0.N} (h0 : ¬t.val % 4 = 0) (h3 : ¬t.val % 4 = 3) :
    ¬isFirst (grid0.coords t) ∧ isLater (grid0.coords t) ∧ ¬isLast (grid0.coords t) :=
  ⟨fun h => h0 ((first_iff t).mp h), (later_iff t).mpr h0, fun h => h3 ((last_iff t).mp h)⟩

theorem hyp_last {t : Fin cfg0.N} (h3 : t.val % 4 = 3) :
    ¬isFirst (grid0.coords t) ∧ isLater (grid0.coords t) ∧ isLast (grid0.coords t) :=
  ⟨fun h => by have := (first_iff t).mp h; omega, (later_iff t).mpr (by omega), (last_iff t).mpr h3⟩

/-- One point's step, by case, on the point's staging buffers and input tiles. -/
def stepFirst (c : Dev nD) (t : Fin cfg0.N) (h0 : t.val % 4 = 0) : Vec F S1024x1024 .f32 :=
  outFirst c (grid0.coords t) (ms0 t) (hs0 t) (ms1 t) (hs1 t) (ms2 t) (hs2 t) (ms3 t) (hs3 t) (hyp_first h0).1 (hyp_first h0).2.1 (hyp_first h0).2.2 (iblk m c 0 t) (iblk m c 1 t) (iblk m c 2 t)
def stepMiddle (c : Dev nD) (t : Fin cfg0.N) (h0 : ¬t.val % 4 = 0) (h3 : ¬t.val % 4 = 3) (acc : Vec F S1024x1024 .f32) : Vec F S1024x1024 .f32 :=
  outMiddle c (grid0.coords t) (ms0 t) (hs0 t) (ms1 t) (hs1 t) (ms2 t) (hs2 t) (ms3 t) (hs3 t) (hyp_middle h0 h3).1 (hyp_middle h0 h3).2.1 (hyp_middle h0 h3).2.2 (iblk m c 0 t) (iblk m c 1 t) (iblk m c 2 t) acc
def stepLast (c : Dev nD) (t : Fin cfg0.N) (h3 : t.val % 4 = 3) (acc : Vec F S1024x1024 .f32) : Vec F S1024x1024 .f32 :=
  outLast c (grid0.coords t) (ms0 t) (hs0 t) (ms1 t) (hs1 t) (ms2 t) (hs2 t) (ms3 t) (hs3 t) (hyp_last h3).1 (hyp_last h3).2.1 (hyp_last h3).2.2 (iblk m c 0 t) (iblk m c 1 t) (iblk m c 2 t) acc

/-- What the output tile's staging buffer holds after the body at point `n`. -/
def tileAfter (c : Dev nD) : (n : ℕ) → n < cfg0.N → Vec F S1024x1024 .f32
  | 0, hn => stepFirst m c ⟨0, hn⟩ (Nat.zero_mod _)
  | n + 1, hn =>
    if h0 : (n + 1) % 4 = 0 then stepFirst m c ⟨n + 1, hn⟩ h0
    else if h3 : (n + 1) % 4 = 3 then stepLast m c ⟨n + 1, hn⟩ h3 (tileAfter c n (Nat.lt_of_succ_lt hn))
    else stepMiddle m c ⟨n + 1, hn⟩ h0 h3 (tileAfter c n (Nat.lt_of_succ_lt hn))

theorem tileAfter_first (c : Dev nD) (t : Fin cfg0.N) (h0 : t.val % 4 = 0) :
    tileAfter m c t.val t.isLt = stepFirst m c t h0 := by
  obtain ⟨n, hn⟩ := t
  cases n with
  | zero => exact rfl
  | succ n => exact (dif_pos h0).trans rfl

theorem tileAfter_middle (c : Dev nD) (t : Fin cfg0.N) (h0 : ¬t.val % 4 = 0) (h3 : ¬t.val % 4 = 3) :
    tileAfter m c t.val t.isLt
      = stepMiddle m c t h0 h3 (tileAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem tileAfter_last (c : Dev nD) (t : Fin cfg0.N) (h3 : t.val % 4 = 3) :
    tileAfter m c t.val t.isLt
      = stepLast m c t h3 (tileAfter m c (t.val - 1) (Nat.lt_of_le_of_lt (Nat.sub_le _ _) t.isLt)) := by
  obtain ⟨n, hn⟩ := t
  cases n with
  | zero => exact absurd (show 0 % 4 = 3 from h3) (by decide)
  | succ n => exact (dif_neg (by dsimp only at h3; omega)).trans ((dif_pos h3).trans rfl)

/-! ## The proof data -/

/-- The arrays as the region finds them; after the body each input's buffer at its tile and the
    output's at `tileAfter`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = tileAfter m c t.val t.isLt := by dsimp only [dats]

/-- Each input's staging buffer holds its tile at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point with k > 0 the output tile's staging buffer holds what the body left at the point
    before: the tile is written back only after k = 3, and the window is idle nowhere. -/
theorem before3_kept (c : Dev nD) (t : Fin cfg0.N) (h0 : ¬t.val % 4 = 0) (d) :
    (dats m 0 c).before 3 t d = tileAfter m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    out_live (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What the obligation asks of the output tile's buffer, its cases on the window's idle table
    written out; the window being idle nowhere, it is the buffer at `after`. -/
def outPost (c : Dev nD) (t : Fin cfg0.N) : sProp 𝕄 :=
  match cfg0.idle 3 (cfg0.grid.coords t) with
  | true =>
    match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

theorem outPost_eq (c : Dev nD) (t : Fin cfg0.N) :
    outPost m c t = owns (c : Thread nD τ) (ms3 t) fullShare ((dats m 0 c).after 3 t) := by
  unfold outPost; rw [out_live]

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ outPost m c t)

set_option maxHeartbeats 1600000 in
/-- The body at any point: the inputs' buffers hold their tiles; the point's k selects the case; at
    k > 0 the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [outPost_eq]
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [tileAfter_first m c t h0]
    unfold stepFirst outFirst
    iintro ⟨HΦ, Ho, ⟨%d0, H0⟩, ⟨%d1, H1⟩, ⟨%d2, H2⟩, ⟨%d3, H3⟩⟩
    iapply ((runFirst c (grid0.coords t) _ _ _ _ _ _ _ _ (hyp_first h0).1 (hyp_first h0).2.1 (hyp_first h0).2.2 (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _ _)
  · by_cases h3 : t.val % 4 = 3
    · rw [tileAfter_last m c t h3]
      simp only [before3_kept m c t h0]
      unfold stepLast outLast
      iintro ⟨HΦ, Ho, ⟨%d0, H0⟩, ⟨%d1, H1⟩, ⟨%d2, H2⟩, ⟨%d3, H3⟩⟩
      iapply ((runLast c (grid0.coords t) _ _ _ _ _ _ _ _ (hyp_last h3).1 (hyp_last h3).2.1 (hyp_last h3).2.2 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _)
    · rw [tileAfter_middle m c t h0 h3]
      simp only [before3_kept m c t h0]
      unfold stepMiddle outMiddle
      iintro ⟨HΦ, Ho, ⟨%d0, H0⟩, ⟨%d1, H1⟩, ⟨%d2, H2⟩, ⟨%d3, H3⟩⟩
      iapply ((runMiddle c (grid0.coords t) _ _ _ _ _ _ _ _ (hyp_middle h0 h3).1 (hyp_middle h0 h3).2.1 (hyp_middle h0 h3).2.2 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverMiddle c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; every array a window
    stages ends at what the proof data computes, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Acc

end
-- ==== Proof.KI.Tiles.lean ====
/-
  What each case leaves in the output tile, as a value: every case ends with one store through the
  whole tile, so the tile holds that store's payload — the tile product at k = 0; the found contents
  plus the tile product at k = 1, 2; at k = 3 that sum, read back, plus the bias row on every row.
-/
import proofs.«105671_j81243601371171_2_alg».proof.Proof.KI.Frame
import Idealize.ShloMosaic.Lib.Pipeline.Value
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_offsets : (![0, 0] : Fin 2 → Nat) = fun _ => 0 := funext fun a => by fin_cases a <;> rfl

/-- k = 0: the tile product of the two input tiles. -/
theorem outFirst_eq (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : isFirst i) (h2 : ¬isLater i) (h3 : ¬isLast i)
    (x0 : Vec F S1024x1024 .f32) (x1 : Vec F S1024x1024 .f32) (x2 : Vec F S1x1024 .f32) :
    outFirst c i arg3 harg3 arg4 harg4 arg5 harg5 arg6 harg6 h1 h2 h3 x0 x1 x2 = k0_pay1 x0 x1 := by
  unfold outFirst
  rw [View.read_writes_eq_canon _ _ _ (coverFirst c i arg3 harg3 arg4 harg4 arg5 harg5 arg6 harg6 h1 h2 h3 x0 x1 x2)]
  unfold runFirst
  dsimp only
  rw [View.canon_unit_zero zero_offsets]
  simp only [View.readAt_eq_ld, harg3.read_unread, harg4.read_unread, View.ld_unit_zero (S := S1024x1024) zero_offsets]

/-- k = 1, 2: what the tile held plus the tile product. -/
theorem outMiddle_eq (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : ¬isLast i)
    (x0 : Vec F S1024x1024 .f32) (x1 : Vec F S1024x1024 .f32) (x2 : Vec F S1x1024 .f32) (acc : Vec F S1024x1024 .f32) :
    outMiddle c i arg3 harg3 arg4 harg4 arg5 harg5 arg6 harg6 h1 h2 h3 x0 x1 x2 acc = k0_pay2 x0 x1 acc := by
  unfold outMiddle
  rw [View.read_writes_eq_canon _ _ _ (coverMiddle c i arg3 harg3 arg4 harg4 arg5 harg5 arg6 harg6 h1 h2 h3 x0 x1 x2 acc)]
  unfold runMiddle
  dsimp only
  rw [View.canon_unit_zero zero_offsets]
  simp only [View.readAt_eq_ld, harg3.read_unread, harg4.read_unread, harg6.read_unread, View.ld_unit_zero (S := S1024x1024) zero_offsets]

/-- k = 3: the same sum, read back, plus the bias row. -/
theorem outLast_eq (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (h1 : ¬isFirst i) (h2 : isLater i) (h3 : isLast i)
    (x0 : Vec F S1024x1024 .f32) (x1 : Vec F S1024x1024 .f32) (x2 : Vec F S1x1024 .f32) (acc : Vec F S1024x1024 .f32) :
    outLast c i arg3 harg3 arg4 harg4 arg5 harg5 arg6 harg6 h1 h2 h3 x0 x1 x2 acc = k0_pay3 (k0_pay2 x0 x1 acc) x2 := by
  unfold outLast
  rw [View.read_writes_eq_canon _ _ _ (coverLast c i arg3 harg3 arg4 harg4 arg5 harg5 arg6 harg6 h1 h2 h3 x0 x1 x2 acc)]
  unfold runLast
  dsimp only
  sl_unfold_words
  rw [View.canon_cons_unit_zero (S := S1024x1024) zero_offsets, View.readCov_unit_zero (S := S1024x1024) _ zero_offsets]
  simp only [View.readAt_eq_ld, harg3.read_unread, harg4.read_unread, harg5.read_unread, harg6.read_unread,
    View.ld_unit_zero (S := S1024x1024) zero_offsets, View.ld_unit_zero (S := S1x1024) zero_offsets]

end Cert.KernelIdeal.Acc

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.KI.Payloads.lean ====
/-
  The three payloads of the tile body read at an index, over the extended reals. Changes of float
  format are the identity there, and the tile product into a zero accumulator is the textbook sum:
    the tile product at (a, b) is the sum over the 1024 positions k of x0 (a, k) · x1 (k, b);
    the accumulating step adds that to what the tile held;
    the final step adds the bias row's entry of the column.
-/
import proofs.«105671_j81243601371171_2_alg».proof.Proof.Gen.KernelIdeal.Skeleton
import proofs.«105671_j81243601371171_2_alg».proof.Proof.LibPlainDot
import Idealize.ShloMosaic.Lib.Pipeline.Value
import Idealize.ShloMosaic.Lib.ValueLayout

noncomputable section

open scoped BigOperators

namespace Cert.KernelIdeal.Acc

open Cert.KernelIdeal Cert.KernelIdeal.Gen Idealize.ShloMosaic Idealize.ShloMosaic.ValueIdx

local notation "tileDot" => dot_S1024x1024_S1024x1024_S1024x1024_1_0_0_1_n_n

theorem dot_l0 (j : S1024x1024.Idx) (q : (tileDot).contr.Idx) : ((tileDot).lhsIdx j q 0).val = (j 0).val := by
  unfold DotDims.lhsIdx
  rw [dif_neg (show ¬(0 : Fin S1024x1024.rank) ∈ (tileDot).lhsBatch by decide),
    dif_pos (show (0 : Fin S1024x1024.rank) ∈ (tileDot).lhsNonContracting by decide)]
  rfl
theorem dot_l1 (j : S1024x1024.Idx) (q : (tileDot).contr.Idx) : ((tileDot).lhsIdx j q 1).val = (q ⟨0, by decide⟩).val :=
  (tileDot).lhsIdx_val_of_single rfl j q
theorem dot_r0 (j : S1024x1024.Idx) (q : (tileDot).contr.Idx) : ((tileDot).rhsIdx j q 0).val = (q ⟨0, by decide⟩).val :=
  (tileDot).rhsIdx_val_of_single rfl j q
theorem dot_r1 (j : S1024x1024.Idx) (q : (tileDot).contr.Idx) : ((tileDot).rhsIdx j q 1).val = (j 1).val := by
  unfold DotDims.rhsIdx
  rw [dif_neg (show ¬(1 : Fin S1024x1024.rank) ∈ (tileDot).rhsBatch by decide),
    dif_pos (show (1 : Fin S1024x1024.rank) ∈ (tileDot).rhsNonContracting by decide)]
  rfl

/-- The tile product at an index. -/
theorem pay1_apply (x0 x1 : Vec Ideal S1024x1024 .f32) (p q : Fin 1024) :
    k0_pay1 (F := Ideal) x0 x1 (ix2 p q) = ∑ k : Fin 1024, x0 (ix2 p k) * x1 (ix2 k q) := by
  unfold k0_pay1
  exact Cert.Lib.PlainDot.matmul_zero_apply (tileDot) rfl rfl dot_l0 dot_l1 dot_r0 dot_r1 none _ _ (ix2 p q)

/-- The accumulating step at an index. -/
theorem pay2_apply (x0 x1 acc : Vec Ideal S1024x1024 .f32) (j : S1024x1024.Idx) :
    k0_pay2 (F := Ideal) x0 x1 acc j = acc j + k0_pay1 (F := Ideal) x0 x1 j := by
  unfold k0_pay2
  rw [shapeCast_self]
  rfl

/-- The final step at an index: the bias row is one row, read at the column. -/
theorem pay3_apply (v : Vec Ideal S1024x1024 .f32) (x2 : Vec Ideal S1x1024 .f32) (p q : Fin 1024) :
    k0_pay3 (F := Ideal) v x2 (ix2 p q) = v (ix2 p q) + x2 (ix2 (0 : Fin 1) q) := by
  unfold k0_pay3
  rw [shapeCast_self, shapeCast_self]
  show v (ix2 p q) + broadcastTo S1024x1024 x2 _ (ix2 p q) = _
  rw [broadcastTo_1b_ab_apply]

end Cert.KernelIdeal.Acc

end
-- ==== Proof.Spec.lean ====
/-
  The specification: a 4096 x 4096 matrix product plus a bias row, and the same number computed tile by tile.

  Entry (r, c) of `x · w + b` is the sum over all 4096 contraction positions of `x (r, k) · w (k, c)`, plus
  `b c`. Cutting the contraction axis into four tiles of 1024 positions splits that sum into four partial
  sums; adding them one after the other, first to last, and then the bias is the same extended real: a finite
  sum over a product of two index sets is the iterated sum, and addition of extended reals is associative.
  Nothing here needs the entries to be finite.
-/
import Idealize.ShloMosaic.Lib.ValueIdx
import Idealize.ShloMosaic.PureOps.Ideal.Laws

noncomputable section

open scoped BigOperators

namespace Cert.TiledLinear

open Idealize.ShloMosaic Idealize.ShloMosaic.ValueIdx

/-- Position `a` of tile `p` on an axis of 4096 cut into four tiles of 1024. -/
def inTile (p : Fin 4) (a : Fin 1024) : Fin 4096 := ⟨a.val + 1024 * p.val, by have := a.isLt; have := p.isLt; omega⟩

theorem inTile_val (p : Fin 4) (a : Fin 1024) : (inTile p a).val = a.val + 1024 * p.val := rfl

/-- A sum over the axis is the sum over the tiles of the sums inside each tile. -/
theorem sum_tiles {M : Type*} [AddCommMonoid M] (f : Fin 4096 → M) :
    ∑ k : Fin 4096, f k = ∑ p : Fin 4, ∑ a : Fin 1024, f (inTile p a) := by
  rw [← Fintype.sum_prod_type' (f := fun p a => f (inTile p a))]
  exact (Fintype.sum_equiv (finProdFinEquiv (m := 4) (n := 1024)) (fun x => f (inTile x.1 x.2)) f (fun x => rfl)).symm

abbrev Mat : Type := (⟨2, ![4096, 4096]⟩ : Shape).Idx → EReal
abbrev Row : Type := (⟨1, ![4096]⟩ : Shape).Idx → EReal

/-- `x · w + b`, entry by entry. -/
def linear (x w : Mat) (b : Row) : Mat :=
  fun i => (∑ k : Fin 4096, x (ix2 (i 0) k) * w (ix2 k (i 1))) + b (ix1 (i 1))

/-- The partial product of contraction tile `p` at entry (r, c); zero past the fourth tile. -/
def part (x w : Mat) (r c : Fin 4096) (p : ℕ) : EReal :=
  if h : p < 4 then ∑ a : Fin 1024, x (ix2 r (inTile ⟨p, h⟩ a)) * w (ix2 (inTile ⟨p, h⟩ a) c) else 0

/-- The partial products of tiles `0 … k` added first to last. -/
def upTo (P : ℕ → EReal) : ℕ → EReal
  | 0 => P 0
  | k + 1 => upTo P k + P (k + 1)

/-- The four partial products added first to last, then the bias, is the entry of `x · w + b`. -/
theorem upTo_three_add (x w : Mat) (b : Row) (i : (⟨2, ![4096, 4096]⟩ : Shape).Idx) :
    upTo (part x w (i 0) (i 1)) 3 + b (ix1 (i 1)) = linear x w b i := by
  unfold linear
  rw [sum_tiles, Fin.sum_univ_four]
  simp only [upTo, part]
  rfl

end Cert.TiledLinear

end
-- ==== Proof.KI.Value.lean ====
/-
  The value of the tiled product at the extended reals: the result array ends holding `x · w + b`.

  Point `t` of the grid works on output tile (t / 16, t / 4 % 4) at contraction step t % 4; its two
  input tiles are rows (t / 16) by contraction tile (t % 4) of `x` and contraction tile (t % 4) by
  columns (t / 4 % 4) of `w`, and its bias tile is columns (t / 4 % 4) of the bias row. So the tile
  product at the point is the partial product of that contraction tile at the tile's entries; by
  induction along the grid the output tile holds, after step k, the partial products of tiles 0 … k
  added first to last, and after step 3 that plus the bias. Step 3 is where the tile is written back,
  the sixteen tiles fill the array, and the four partial products plus the bias are the whole sum.
-/
import proofs.«105671_j81243601371171_2_alg».proof.Proof.KI.Tiles
import proofs.«105671_j81243601371171_2_alg».proof.Proof.KI.Payloads
import proofs.«105671_j81243601371171_2_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Acc

open Cert.KernelIdeal Cert.KernelIdeal.Gen Cert.TiledLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The output tile's row and column, and the contraction tile, of grid point `n`. -/
def rowTile (n : ℕ) : Fin 4 := ⟨n / 16 % 4, Nat.mod_lt _ (by decide)⟩
def colTile (n : ℕ) : Fin 4 := ⟨n / 4 % 4, Nat.mod_lt _ (by decide)⟩
def stepTile (n : ℕ) : Fin 4 := ⟨n % 4, Nat.mod_lt _ (by decide)⟩

/-- Within one sweep of the contraction axis the output tile does not move. -/
theorem tiles_succ (n : ℕ) (h : ¬(n + 1) % 4 = 0) : rowTile (n + 1) = rowTile n ∧ colTile (n + 1) = colTile n :=
  ⟨Fin.ext (by show (n + 1) / 16 % 4 = n / 16 % 4; omega), Fin.ext (by show (n + 1) / 4 % 4 = n / 4 % 4; omega)⟩

/-- The printed index maps over the grid. -/
theorem idx_facts : ∀ t : Fin cfg0.N,
    win0_0.index t (0 : Fin 2) = t.val / 16 % 4 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 % 4 ∧ win0_3.index t (1 : Fin 2) = t.val / 4 % 4 :=
  (by decide +kernel : ∀ t : Fin grid0.N, _)

/-! ## The input tiles, read off the arrays -/

theorem iblk0_apply (c : Dev nD) (n : ℕ) (hn : n < cfg0.N) (a k : Fin 1024) :
    iblk m c 0 ⟨n, hn⟩ (ix2 a k) = V m c main_arg0 (ix2 (inTile (rowTile n) a) (inTile (stepTile n) k)) := by
  obtain ⟨e0, e1, -⟩ := idx_facts ⟨n, hn⟩
  unfold iblk
  rw [View.read_apply]
  show V m c main_arg0 _ = V m c main_arg0 _
  congr 1
  funext ax
  apply Fin.ext
  match ax with
  | ⟨0, _⟩ => show win0_0.index ⟨n, hn⟩ (0 : Fin 2) * 1024 + 1 * a.val = a.val + 1024 * (n / 16 % 4); rw [e0]; dsimp only; omega
  | ⟨1, _⟩ => show win0_0.index ⟨n, hn⟩ (1 : Fin 2) * 1024 + 1 * k.val = k.val + 1024 * (n % 4); rw [e1]; dsimp only; omega

theorem iblk1_apply (c : Dev nD) (n : ℕ) (hn : n < cfg0.N) (k b : Fin 1024) :
    iblk m c 1 ⟨n, hn⟩ (ix2 k b) = V m c main_arg1 (ix2 (inTile (stepTile n) k) (inTile (colTile n) b)) := by
  obtain ⟨-, -, e2, e3, -⟩ := idx_facts ⟨n, hn⟩
  unfold iblk
  rw [View.read_apply]
  show V m c main_arg1 _ = V m c main_arg1 _
  congr 1
  funext ax
  apply Fin.ext
  match ax with
  | ⟨0, _⟩ => show win0_1.index ⟨n, hn⟩ (0 : Fin 2) * 1024 + 1 * k.val = k.val + 1024 * (n % 4); rw [e2]; dsimp only; omega
  | ⟨1, _⟩ => show win0_1.index ⟨n, hn⟩ (1 : Fin 2) * 1024 + 1 * b.val = b.val + 1024 * (n / 4 % 4); rw [e3]; dsimp only; omega

/-- The bias window's array is the bias vector given a leading unit axis before the region. -/
theorem bias_array (c : Dev nD) :
    (V m c main_v0 : S1x4096.Idx → EReal) = shapeCast S1x4096 (m ((c : Thread nD τ).loc main_arg2)) shapeCasts_S4096_S1x4096 := by
  dsimp only [V, hostOps0]; after_results; rfl

theorem iblk2_apply (c : Dev nD) (n : ℕ) (hn : n < cfg0.N) (b : Fin 1024) :
    iblk m c 2 ⟨n, hn⟩ (ix2 (0 : Fin 1) b) = m ((c : Thread nD τ).loc main_arg2) (ix1 (inTile (colTile n) b)) := by
  obtain ⟨-, -, -, -, e4, e5, -⟩ := idx_facts ⟨n, hn⟩
  unfold iblk
  rw [View.read_apply]
  show V m c main_v0 _ = _
  rw [bias_array]
  have hi : ((cfg0.win 2).blk ⟨n, hn⟩).view.emb (ix2 (0 : Fin 1) b) = ix2 (0 : Fin 1) (inTile (colTile n) b) := by
    funext ax
    apply Fin.ext
    match ax with
    | ⟨0, _⟩ => show win0_2.index ⟨n, hn⟩ (0 : Fin 2) * 1 + 1 * 0 = 0; rw [e4]
    | ⟨1, _⟩ => show win0_2.index ⟨n, hn⟩ (1 : Fin 2) * 1024 + 1 * b.val = b.val + 1024 * (n / 4 % 4); rw [e5]; dsimp only; omega
  rw [hi, shapeCast_a_1a_apply]

/-! ## The running contents of the output tile -/

/-- The partial products at entry `j` of the output tile of point `n`, as entries of the arrays. -/
def parts (c : Dev nD) (n : ℕ) (p q : Fin 1024) : ℕ → EReal :=
  part (V m c main_arg0) (V m c main_arg1) (inTile (rowTile n) p) (inTile (colTile n) q)

/-- The tile product at point `n` is the partial product of contraction tile `n % 4`. -/
theorem tile_product (c : Dev nD) (n : ℕ) (hn : n < cfg0.N) (p q : Fin 1024) :
    k0_pay1 (F := Ideal) (iblk m c 0 ⟨n, hn⟩) (iblk m c 1 ⟨n, hn⟩) (ix2 p q) = parts m c n p q (n % 4) := by
  rw [pay1_apply]
  unfold parts part
  rw [dif_pos (Nat.mod_lt _ (by decide))]
  refine Finset.sum_congr rfl fun k _ => ?_
  rw [iblk0_apply, iblk1_apply]
  rfl

/-- After point `n` the output tile holds the partial products of tiles `0 … n % 4` added first to
    last, and after a sweep's last point also the bias. -/
theorem tileAfter_eq (c : Dev nD) : ∀ (n : ℕ) (hn : n < cfg0.N) (p q : Fin 1024),
    tileAfter m c n hn (ix2 p q)
      = if n % 4 = 3 then upTo (parts m c n p q) 3 + m ((c : Thread nD τ).loc main_arg2) (ix1 (inTile (colTile n) q))
        else upTo (parts m c n p q) (n % 4)
  | 0, hn, p, q => by
    have e : tileAfter m c 0 hn = stepFirst m c ⟨0, hn⟩ (Nat.zero_mod 4) := tileAfter_first m c ⟨0, hn⟩ (Nat.zero_mod 4)
    rw [e, if_neg (by decide)]
    unfold stepFirst
    rw [outFirst_eq, tile_product]
    rfl
  | n + 1, hn, p, q => by
    have ih := tileAfter_eq c n (Nat.lt_of_succ_lt hn)
    by_cases h0 : (n + 1) % 4 = 0
    · have e : tileAfter m c (n + 1) hn = stepFirst m c ⟨n + 1, hn⟩ h0 := tileAfter_first m c ⟨n + 1, hn⟩ h0
      rw [e, if_neg (by omega)]
      unfold stepFirst
      rw [outFirst_eq, tile_product, h0]
      rfl
    · obtain ⟨er, ec⟩ := tiles_succ n h0
      have ep : parts m c (n + 1) p q = parts m c n p q := by unfold parts; rw [er, ec]
      by_cases h3 : (n + 1) % 4 = 3
      · have e : tileAfter m c (n + 1) hn = stepLast m c ⟨n + 1, hn⟩ h3 (tileAfter m c n (Nat.lt_of_succ_lt hn)) :=
          tileAfter_last m c ⟨n + 1, hn⟩ h3
        rw [e, if_pos h3]
        unfold stepLast
        rw [outLast_eq, pay3_apply, pay2_apply, tile_product, ih p q, if_neg (by omega), iblk2_apply, ep, h3, ec,
          show n % 4 = 2 by omega]
        rfl
      · have e : tileAfter m c (n + 1) hn = stepMiddle m c ⟨n + 1, hn⟩ h0 h3 (tileAfter m c n (Nat.lt_of_succ_lt hn)) :=
          tileAfter_middle m c ⟨n + 1, hn⟩ h0 h3
        rw [e, if_neg h3]
        unfold stepMiddle
        rw [outMiddle_eq, pay2_apply, tile_product, ih p q, if_neg (by omega), ep, show (n + 1) % 4 = n % 4 + 1 by omega]
        rfl

/-! ## The result array -/

/-- `x · w + b` of the arrays as the region finds them. -/
def result (c : Dev nD) : Buf (Elt Ideal) ((c : Thread nD τ).loc main_v1) :=
  linear (V m c main_arg0) (V m c main_arg1) (m ((c : Thread nD τ).loc main_arg2))

/-- What a sweep's last point writes back is its tile of `x · w + b`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, -, -, -, e6, e7⟩ := idx_facts t
  show (cfg0.win 3).cut (grid0.coords t) ((dats m 0 c).after 3 t) = _
  rw [after3]
  funext (j : S1024x1024.Idx)
  obtain ⟨p, q, rfl⟩ : ∃ (p : Fin 1024) (q : Fin 1024), j = ix2 p q := ⟨j 0, j 1, eq_ix2 j⟩
  show tileAfter m c t.val t.isLt (ix2 p q) = result m c (((cfg0.win 3).blk t).view.emb (ix2 p q))
  rw [tileAfter_eq, if_pos h3]
  have hi : ((cfg0.win 3).blk t).view.emb (ix2 p q) = ix2 (inTile (rowTile t.val) p) (inTile (colTile t.val) q) := by
    funext ax
    apply Fin.ext
    match ax with
    | ⟨0, _⟩ => show win0_3.index t (0 : Fin 2) * 1024 + 1 * p.val = p.val + 1024 * (t.val / 16 % 4); rw [e6]; omega
    | ⟨1, _⟩ => show win0_3.index t (1 : Fin 2) * 1024 + 1 * q.val = q.val + 1024 * (t.val / 4 % 4); rw [e7]; omega
  rw [hi]
  unfold result
  rw [← upTo_three_add]
  rfl

theorem mem_tile (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the array lies in the tile some sweep's last point writes back. -/
theorem covered (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [show cfg0.N = 64 from N_0]; omega⟩, rfl⟩
  obtain ⟨-, -, -, -, -, -, e6, e7⟩ := idx_facts t
  refine ⟨t, (flush0_3 t).mpr (by omega), ?_⟩
  rw [mem_tile]
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 1024 ≤ (i 1).val ∧ (i 1).val < win0_3.index t (1 : Fin 2) * 1024 + 1024; rw [e7]; omega

/-- So the result array ends at `x · w + b`. -/
theorem final (c : Dev nD) : (dats m 0 c).arrAt 3 cfg0.N = result m c :=
  (dats m 0 c).arrAt_eq_of_cover 3 (result m c) (flushed_eq m c) (covered)

theorem result_eq (c : Dev nD) : result m c
    = linear (m ((c : Thread nD τ).loc main_arg0)) (m ((c : Thread nD τ).loc main_arg1)) (m ((c : Thread nD τ).loc main_arg2)) := by
  unfold result; rw [V_main_arg0, V_main_arg1]

/-- The run, read: the result array at `x · w + b` of the arguments, the arguments unchanged. -/
theorem run : θ_run defs (onTc (τ := τ) (main (F := Ideal))) ⟨m, fun _ => 0, ρ⟩ (fun r => ∀ c : Dev nD,
      r.2.mem ((c.tc : Thread nD τ).loc main_v1)
        = linear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans ((final m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Acc

end
-- ==== Proof.RefLinear.lean ====
/-
  The reference at the extended reals is `x · w + b`: its `dot_general` contracts the second axis of
  `x` with the first of `w`, its two broadcasts carry entry `c` of the bias to every row of column
  `c`, and its last operation adds the two, entry by entry.
-/
import proofs.«105671_j81243601371171_2_alg».proof.Proof.Gen.ReferenceIdeal.Read
import proofs.«105671_j81243601371171_2_alg».proof.Proof.Spec

noncomputable section

open scoped BigOperators

namespace Cert.ReferenceIdeal.Linear

open Cert.ReferenceIdeal Cert.ReferenceIdeal.Read Cert.TiledLinear
open Idealize.ShloMosaic Idealize.ShloMosaic.ValueIdx

theorem reference_eq (x0 x1 : (⟨S4096x4096, .f32⟩ : BufTy).Contents (Elt Ideal)) (x2 : (⟨S4096, .f32⟩ : BufTy).Contents (Elt Ideal)) :
    val_main_v3 (F := Ideal) x0 x1 x2 = linear x0 x1 x2 := by
  funext i
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 k (i 1) := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v3_apply, val_main_v0_apply, val_main_v2_apply, val_main_v1_apply, eb]
  simp only [el, er]
  rfl

end Cert.ReferenceIdeal.Linear

end
-- ==== Proof.lean ====
/-
  A tiled matrix product with a bias row against the plain one.

  The kernel computes `x · w + b` for 4096 x 4096 matrices on a 4 x 4 x 4 grid of 1024 x 1024 tiles:
  for each output tile it sweeps the four contraction tiles, storing the first tile product, adding
  each later one to the running tile, and adding the bias row after the last; the tile is written back
  once per sweep. The reference computes the same matrix product in one operation and adds the bias.

  Over the extended reals a change of float format is the identity and every sum is exact, so both
  results are, entry by entry, the sum over all 4096 contraction positions plus the bias entry: the
  kernel's four partial sums added first to last regroup the one sum, which holds for extended reals
  whatever the entries are. The three programs' frames come from their runs; the idealization
  rewrote nothing, so its statement is trivial.
-/
import proofs.«105671_j81243601371171_2_alg».proof.Defs
import proofs.«105671_j81243601371171_2_alg».proof.Proof.Gen.Kernel
import proofs.«105671_j81243601371171_2_alg».proof.Proof.Gen.KernelIdeal
import proofs.«105671_j81243601371171_2_alg».proof.Proof.Gen.ReferenceIdeal
import proofs.«105671_j81243601371171_2_alg».proof.Proof.Gen.ReferenceIdeal.Run
import proofs.«105671_j81243601371171_2_alg».proof.Proof.Gen.ReferenceIdeal.Read
import proofs.«105671_j81243601371171_2_alg».proof.Proof.Gen.Pre_finite_inputs
import proofs.«105671_j81243601371171_2_alg».proof.Proof.K.Frame
import proofs.«105671_j81243601371171_2_alg».proof.Proof.KI.Value
import proofs.«105671_j81243601371171_2_alg».proof.Proof.RefLinear
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Acc.frame (F := Bits) m ρ

/-- So does its reading over the extended reals. -/
theorem frame_ideal : Cert.frame_KernelIdeal := fun m ρ _ => Cert.KernelIdeal.Acc.frame (F := Ideal) m ρ

/-- The reference is four host operations in a row. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `x · w + b` of arguments that agree. -/
theorem algebraic : Cert.algebraic_KernelIdeal_ReferenceIdeal := by
  intro m ρ m' ρ' _ hagree
  refine ⟨fun c => Cert.TiledLinear.linear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Linear.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
